-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x640000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S2000x128 : Shape := ⟨2, ![2000, 128]⟩
abbrev S740000x128 : Shape := ⟨2, ![740000, 128]⟩
abbrev S1x128 : Shape := ⟨2, ![1, 128]⟩

abbrev nBuf : Space → Nat
  | .hbm => 62
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x640000, .i32⟩
  | .hbm, ⟨6, _⟩ => ⟨S640000, .i32⟩
  | .hbm, ⟨7, _⟩ => ⟨S740000, .i32⟩
  | .hbm, ⟨8, _⟩ => ⟨S1x640000, .i32⟩
  | .hbm, ⟨9, _⟩ => ⟨S640000, .i32⟩
  | .hbm, ⟨10, _⟩ => ⟨S740000, .i32⟩
  | .hbm, ⟨11, _⟩ => ⟨S_, .f32⟩
  | .hbm, ⟨12, _⟩ => ⟨S740000, .f32⟩
  | .hbm, ⟨13, _⟩ => ⟨S_, .f32⟩
  | .hbm, ⟨14, _⟩ => ⟨S100000, .f32⟩
  | .hbm, ⟨15, _⟩ => ⟨S740000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S740000, .i32⟩
  | .hbm, ⟨27, _⟩ => ⟨S740000, .i1⟩
  | .hbm, ⟨28, _⟩ => ⟨S_, .i32⟩
  | .hbm, ⟨29, _⟩ => ⟨S740000, .i32⟩
  | .hbm, ⟨30, _⟩ => ⟨S740000, .i32⟩
  | .hbm, ⟨31, _⟩ => ⟨S740000, .i32⟩
  | .hbm, ⟨32, _⟩ => ⟨S740000x1, .i32⟩
  | .hbm, ⟨33, _⟩ => ⟨S740000, .f32⟩
  | .hbm, ⟨34, _⟩ => ⟨S_, .i32⟩
  | .hbm, ⟨35, _⟩ => ⟨S740000, .i32⟩
  | .hbm, ⟨36, _⟩ => ⟨S740000, .i1⟩
  | .hbm, ⟨37, _⟩ => ⟨S_, .i32⟩
  | .hbm, ⟨38, _⟩ => ⟨S740000, .i32⟩
  | .hbm, ⟨39, _⟩ => ⟨S740000, .i32⟩
  | .hbm, ⟨40, _⟩ => ⟨S740000, .i32⟩
  | .hbm, ⟨41, _⟩ => ⟨S740000x1, .i32⟩
  | .hbm, ⟨42, _⟩ => ⟨S740000, .f32⟩
  | .hbm, ⟨43, _⟩ => ⟨S740000, .f32⟩
  | .hbm, ⟨44, _⟩ => ⟨S100000x128, .f32⟩
  | .hbm, ⟨45, _⟩ => ⟨S_, .i32⟩
  | .hbm, ⟨46, _⟩ => ⟨S740000, .i32⟩
  | .hbm, ⟨47, _⟩ => ⟨S740000, .i1⟩
  | .hbm, ⟨48, _⟩ => ⟨S_, .i32⟩
  | .hbm, ⟨49, _⟩ => ⟨S740000, .i32⟩
  | .hbm, ⟨50, _⟩ => ⟨S740000, .i32⟩
  | .hbm, ⟨51, _⟩ => ⟨S740000, .i32⟩
  | .hbm, ⟨52, _⟩ => ⟨S740000x1, .i32⟩
  | .hbm, ⟨53, _⟩ => ⟨S740000x128, .f32⟩
  | .hbm, ⟨54, _⟩ => ⟨S740000x1, .f32⟩
  | .hbm, ⟨55, _⟩ => ⟨S740000x128, .f32⟩
  | .hbm, ⟨56, _⟩ => ⟨S740000x128, .f32⟩
  | .hbm, ⟨57, _⟩ => ⟨S_, .f32⟩
  | .hbm, ⟨58, _⟩ => ⟨S100000x128, .f32⟩
  | .hbm, ⟨59, _⟩ => ⟨S740000x1, .i32⟩
  | .hbm, ⟨60, _⟩ => ⟨S100000x128, .f32⟩
  | .hbm, ⟨61, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S2000x128_S128x128_S2000x128_1_0_0_1_n_n_wf : DotDims.WF S2000x128 S128x128 S2000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x640000, .i32⟩
  | .hbm, ⟨6, _⟩ => ⟨S640000, .i32⟩
  | .hbm, ⟨7, _⟩ => ⟨S740000, .i32⟩
  | .hbm, ⟨8, _⟩ => ⟨S1x640000, .i32⟩
  | .hbm, ⟨9, _⟩ => ⟨S640000, .i32⟩
  | .hbm, ⟨10, _⟩ => ⟨S740000, .i32⟩
  | .hbm, ⟨11, _⟩ => ⟨S_, .f32⟩
  | .hbm, ⟨12, _⟩ => ⟨S740000, .f32⟩
  | .hbm, ⟨13, _⟩ => ⟨S_, .f32⟩
  | .hbm, ⟨14, _⟩ => ⟨S100000, .f32⟩
  | .hbm, ⟨15, _⟩ => ⟨S740000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S740000, .i32⟩
  | .hbm, ⟨27, _⟩ => ⟨S740000, .i1⟩
  | .hbm, ⟨28, _⟩ => ⟨S_, .i32⟩
  | .hbm, ⟨29, _⟩ => ⟨S740000, .i32⟩
  | .hbm, ⟨30, _⟩ => ⟨S740000, .i32⟩
  | .hbm, ⟨31, _⟩ => ⟨S740000, .i32⟩
  | .hbm, ⟨32, _⟩ => ⟨S740000x1, .i32⟩
  | .hbm, ⟨33, _⟩ => ⟨S740000, .f32⟩
  | .hbm, ⟨34, _⟩ => ⟨S_, .i32⟩
  | .hbm, ⟨35, _⟩ => ⟨S740000, .i32⟩
  | .hbm, ⟨36, _⟩ => ⟨S740000, .i1⟩
  | .hbm, ⟨37, _⟩ => ⟨S_, .i32⟩
  | .hbm, ⟨38, _⟩ => ⟨S740000, .i32⟩
  | .hbm, ⟨39, _⟩ => ⟨S740000, .i32⟩
  | .hbm, ⟨40, _⟩ => ⟨S740000, .i32⟩
  | .hbm, ⟨41, _⟩ => ⟨S740000x1, .i32⟩
  | .hbm, ⟨42, _⟩ => ⟨S740000, .f32⟩
  | .hbm, ⟨43, _⟩ => ⟨S740000, .f32⟩
  | .hbm, ⟨44, _⟩ => ⟨S100000x128, .f32⟩
  | .hbm, ⟨45, _⟩ => ⟨S_, .i32⟩
  | .hbm, ⟨46, _⟩ => ⟨S740000, .i32⟩
  | .hbm, ⟨47, _⟩ => ⟨S740000, .i1⟩
  | .hbm, ⟨48, _⟩ => ⟨S_, .i32⟩
  | .hbm, ⟨49, _⟩ => ⟨S740000, .i32⟩
  | .hbm, ⟨50, _⟩ => ⟨S740000, .i32⟩
  | .hbm, ⟨51, _⟩ => ⟨S740000, .i32⟩
  | .hbm, ⟨52, _⟩ => ⟨S740000x1, .i32⟩
  | .hbm, ⟨53, _⟩ => ⟨S740000x128, .f32⟩
  | .hbm, ⟨54, _⟩ => ⟨S740000x1, .f32⟩
  | .hbm, ⟨55, _⟩ => ⟨S740000x128, .f32⟩
  | .hbm, ⟨56, _⟩ => ⟨S740000x128, .f32⟩
  | .hbm, ⟨57, _⟩ => ⟨S_, .f32⟩
  | .hbm, ⟨58, _⟩ => ⟨S100000x128, .f32⟩
  | .hbm, ⟨59, _⟩ => ⟨S740000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

class Facts : Prop extends Facts₀ where

variable [Facts]
-- ==== Proof.KernelRun.lean ====
/-
  The idealized kernel's run with its RESULT named. @main is six segments — three stretches of host operations, the
  projection's region, one more stretch, the residual's region — and the generated frame certificate already folds the
  TensorCore's buffer contents through them (`Gen.W0` … `Gen.W6`: a stretch applies its operations, a region leaves its
  arrays at what its write-backs build). Its launch reads the last thread state — every unscoped buffer at `Gen.W6` —
  against the final memory; here the result buffer is read there too, beside the four arguments: every weakly fair
  execution ends with the result array at `W6 … main_v44` and the arguments as launched.
-/
import proofs.«130506_j5394478923808_1_alg».proof.Defs
import proofs.«130506_j5394478923808_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every weakly fair execution of @main terminates, nothing faulting, with the result buffer at the last boundary's
    contents and the argument arrays as launched. -/
theorem run_out : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Out

end
-- ==== Proof.Middle.lean ====
/-
  The part of the computation that both programs run as the SAME host operations, named once so that it is never opened:
  the edge list with a self loop appended per node (`src`, `dst`), each node's in-degree counted by a scatter-add of ones
  (`deg`), its inverse square root where the degree is positive and zero elsewhere (`dinv`), an edge's weight
  dinv[src] · dinv[dst] (`nrm`, the indices wrapped when negative as numpy indexing does), and — as a function of the
  projected features `h` — the rows of `h` gathered along the edges' sources, scaled by the edge weights and scatter-added
  onto the edges' targets (`mid`). Each is the programs' own term; the proof uses only that the two programs apply the
  same `mid` to equal arrays.
-/
import proofs.«130506_j5394478923808_1_alg».proof.Proof.Gen.KernelIdeal

noncomputable section

namespace Cert.KernelIdeal.Out

open Cert.KernelIdeal Cert.KernelIdeal.Gen Idealize.ShloMosaic Idealize.SL.Sem

variable {F : FTy → Type} [FloatOps F]

/-- The edges' source nodes, a self loop appended per node: row 0 of the edge list, then 0 … 99999. -/
def src (ei : (⟨S2x640000, .i32⟩ : BufTy).Contents (Elt F)) : (⟨S740000, .i32⟩ : BufTy).Contents (Elt F) :=
  concatenate S740000 0 [⟨S640000, (shapeCast _ (extractStridedSlice S1x640000 ![0, 0] ei slices_S2x640000_S1x640000_0_0) shapeCasts_S1x640000_S640000)⟩, ⟨S100000, (iotaInDim S100000 32 0)⟩] concatenates_S640000_S100000_S740000_d0

/-- The edges' target nodes, likewise: row 1 of the edge list, then 0 … 99999. -/
def dst (ei : (⟨S2x640000, .i32⟩ : BufTy).Contents (Elt F)) : (⟨S740000, .i32⟩ : BufTy).Contents (Elt F) :=
  concatenate S740000 0 [⟨S640000, (shapeCast _ (extractStridedSlice S1x640000 ![1, 0] ei slices_S2x640000_S1x640000_1_0) shapeCasts_S1x640000_S640000)⟩, ⟨S100000, (iotaInDim S100000 32 0)⟩] concatenates_S640000_S100000_S740000_d0

/-- Each node's in-degree: ones scatter-added at the targets. -/
def deg (ei : (⟨S2x640000, .i32⟩ : BufTy).Contents (Elt F)) : (⟨S100000, .f32⟩ : BufTy).Contents (Elt F) :=
  Host.scatterAdd scatter_S100000_S740000x1_S740000_n_0_0_1 (broadcastInDim S100000 ![] bcast_S_S100000 (constant S_ .f32 0x00000000#32)) (broadcastInDim S740000x1 ![0] bcast_S740000_S740000x1_0 (dst ei)) (broadcastInDim S740000 ![] bcast_S_S740000 (constant S_ .f32 0x3F800000#32))

/-- The inverse square root of the degree where it is positive, zero elsewhere. -/
def dinv (ei : (⟨S2x640000, .i32⟩ : BufTy).Contents (Elt F)) : (⟨S100000, .f32⟩ : BufTy).Contents (Elt F) :=
  select (cmpf (F := F) .ogt (deg (F := F) ei) (broadcastInDim S100000 ![] bcast_S_S100000 (constant S_ .f32 0x00000000#32))) (Host.rsqrt (deg (F := F) ei)) (broadcastInDim S100000 ![] bcast_S_S100000 (id (constant S_ .f32 0x00000000#32)))

/-- An edge's weight: dinv at its source times dinv at its target (a negative index wrapped by the node count). -/
def nrm (ei : (⟨S2x640000, .i32⟩ : BufTy).Contents (Elt F)) : (⟨S740000, .f32⟩ : BufTy).Contents (Elt F) :=
  mulf (Host.gather gather_S100000_S740000x1_S740000_n_0_n_n_0_1_1 (dinv (F := F) ei) (broadcastInDim S740000x1 ![0] bcast_S740000_S740000x1_0 (select (cmpi .slt (src ei) (broadcastInDim S740000 ![] bcast_S_S740000 (constantI S_ 32 0#32))) (addi (src ei) (broadcastInDim S740000 ![] bcast_S_S740000 (constantI S_ 32 100000#32))) (src ei)))) (Host.gather gather_S100000_S740000x1_S740000_n_0_n_n_0_1_1 (dinv (F := F) ei) (broadcastInDim S740000x1 ![0] bcast_S740000_S740000x1_0 (select (cmpi .slt (dst ei) (broadcastInDim S740000 ![] bcast_S_S740000 (constantI S_ 32 0#32))) (addi (dst ei) (broadcastInDim S740000 ![] bcast_S_S740000 (constantI S_ 32 100000#32))) (dst ei))))

/-- The aggregation, as a function of the projected features `h`: h's rows gathered at the sources, scaled by the edge
    weights, scatter-added onto the targets. -/
def mid (ei : (⟨S2x640000, .i32⟩ : BufTy).Contents (Elt F)) (h : (⟨S100000x128, .f32⟩ : BufTy).Contents (Elt F)) :
    (⟨S100000x128, .f32⟩ : BufTy).Contents (Elt F) :=
  Host.scatterAdd scatter_S100000x128_S740000x1_S740000x128_1_0_0_1 (broadcastInDim S100000x128 ![] bcast_S_S100000x128 (constant S_ .f32 0x00000000#32)) (broadcastInDim S740000x1 ![0] bcast_S740000_S740000x1_0 (dst ei)) (mulf (Host.gather gather_S100000x128_S740000x1_S740000x128_1_0_n_n_0_1_1128 h (broadcastInDim S740000x1 ![0] bcast_S740000_S740000x1_0 (select (cmpi .slt (src ei) (broadcastInDim S740000 ![] bcast_S_S740000 (constantI S_ 32 0#32))) (addi (src ei) (broadcastInDim S740000 ![] bcast_S_S740000 (constantI S_ 32 100000#32))) (src ei)))) (broadcastInDim S740000x128 ![0, 1] bcast_S740000x1_S740000x128_0_1 (broadcastInDim S740000x1 ![0] bcast_S740000_S740000x1_0 (nrm (F := F) ei))))

end Cert.KernelIdeal.Out

end
-- ==== Proof.HostReads.lean ====
/-
  What the TensorCore's buffers hold where the two regions read them. The generated frame folds the buffer contents
  through @main's segments (`Gen.W0` … `Gen.W6`). Read here, by running the host operations' fold: before the
  projection's region `x` and `W` are as launched, and the edge endpoints and the edge weights are `src`, `dst`, `nrm` of
  the launched edge list; the stretch between the regions leaves the aggregated array at `mid` of the projection's result
  array; `x` and the bias are still as launched at the residual's region; and the program's result buffer is the
  residual's result array.
-/
import proofs.«130506_j5394478923808_1_alg».proof.Proof.Gen.KernelIdeal.Frame
import proofs.«130506_j5394478923808_1_alg».proof.Proof.Middle
import Idealize.ShloMosaic.Lib.StableHlo.Run

set_option maxRecDepth 16384

noncomputable section

namespace Cert.KernelIdeal.Out

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the projection's region -/

set_option maxHeartbeats 4000000 in
/-- The edges' sources, computed by the first stretch and untouched since. -/
theorem src_at (c : Dev nD) :
    (W3 m ρ c (Proc.devRef .tc main_v3) : (⟨S740000, .i32⟩ : BufTy).Contents (Elt F)) = src (m ((c.tc : Thread nD τ).loc main_arg1)) := by
  show StableHlo.after hostOps0_2 (StableHlo.after hostOps0_1 (StableHlo.after hostOps0 (W0 m ρ c))) (Proc.devRef .tc main_v3) = _
  unfold src
  after_results_simp <;> rfl

set_option maxHeartbeats 4000000 in
/-- The edges' targets, likewise. -/
theorem dst_at (c : Dev nD) :
    (W3 m ρ c (Proc.devRef .tc main_v6) : (⟨S740000, .i32⟩ : BufTy).Contents (Elt F)) = dst (m ((c.tc : Thread nD τ).loc main_arg1)) := by
  show StableHlo.after hostOps0_2 (StableHlo.after hostOps0_1 (StableHlo.after hostOps0 (W0 m ρ c))) (Proc.devRef .tc main_v6) = _
  unfold dst
  after_results_simp <;> rfl

set_option maxHeartbeats 16000000 in
/-- The edge weights: the last value the stretches before the region compute. -/
theorem nrm_at (c : Dev nD) :
    (W3 m ρ c (Proc.devRef .tc main_v29) : (⟨S740000, .f32⟩ : BufTy).Contents (Elt F)) = nrm (m ((c.tc : Thread nD τ).loc main_arg1)) := by
  show StableHlo.after hostOps0_2 (StableHlo.after hostOps0_1 (StableHlo.after hostOps0 (W0 m ρ c))) (Proc.devRef .tc main_v29) = _
  unfold nrm dinv deg src dst
  after_results_simp <;> rfl

set_option maxHeartbeats 4000000 in
/-- No host operation writes `x`. -/
theorem x_at3 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp <;> rfl

set_option maxHeartbeats 4000000 in
/-- No host operation writes `W`. -/
theorem w_at3 (c : Dev nD) : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp <;> rfl

/-! ## Between the regions -/

/-- The projection's result buffer at the region's exit is the region's result array. -/
theorem h_at4 (c : Dev nD) : W4 m ρ c (Proc.devRef .tc main_v30) = (dat0 (V3 m ρ) c).arrAt 2 cfg0.N :=
  W4_arr m ρ c 2

set_option maxHeartbeats 4000000 in
/-- The aggregated array at the residual's region: `mid` of the projection's result array. -/
theorem agg_at5 (c : Dev nD) :
    (W5 m ρ c (Proc.devRef .tc main_v43) : (⟨S100000x128, .f32⟩ : BufTy).Contents (Elt F))
      = mid (m ((c.tc : Thread nD τ).loc main_arg1)) (W4 m ρ c (Proc.devRef .tc main_v30)) := by
  show StableHlo.after hostOps1 (W4 m ρ c) (Proc.devRef .tc main_v43) = _
  after_results_simp
  rw [W4_of_ne m ρ c main_v3 (by decide), W4_of_ne m ρ c main_v6 (by decide), W4_of_ne m ρ c main_v29 (by decide)]
  rw [src_at m ρ c, dst_at m ρ c, nrm_at m ρ c]
  rfl

/-! ## At the residual's region, and after it -/

/-- `x` is as launched at the residual's region (its window 0 stages it and leaves it). -/
theorem x_at5 (c : Dev nD) : W5 m ρ c (Proc.devRef .tc main_arg0) = m ((c.tc : Thread nD τ).loc main_arg0) :=
  ((W6_arr m ρ c 0).trans (((dat1 (V5 m ρ) c).arrAt_in 0 rfl _).trans (A_eq1 (V5 m ρ) c 0))).symm.trans (W6_main_arg0 m ρ c)

/-- The bias is as launched at the residual's region (its window 2 stages it and leaves it). -/
theorem b_at5 (c : Dev nD) : W5 m ρ c (Proc.devRef .tc main_arg3) = m ((c.tc : Thread nD τ).loc main_arg3) :=
  ((W6_arr m ρ c 2).trans (((dat1 (V5 m ρ) c).arrAt_in 2 rfl _).trans (A_eq1 (V5 m ρ) c 2))).symm.trans (W6_main_arg3 m ρ c)

/-- The program's result buffer after the last region is that region's result array. -/
theorem out_at6 (c : Dev nD) : W6 m ρ c (Proc.devRef .tc main_v44) = (dat1 (V5 m ρ) c).arrAt 3 cfg1.N :=
  W6_arr m ρ c 3

end Cert.KernelIdeal.Out

end
-- ==== Proof.Spec.lean ====
/-
  The mathematics of one graph-convolution block, as two whole-array functions on the extended reals, over literal shapes.
  `proj x w` is the dense projection h = x · W: entry (r, c) is the sum over k of x[r, k] · W[k, c]. `resid x agg b` is the
  block's tail: bias added along the feature axis, the positive part taken, the input added back —
  entry (r, c) is x[r, c] + max (agg[r, c] + b[c]) 0. Between the two sits the gather of h's rows along the edges, their
  scaling by the symmetric degree normalization and the scatter-add onto the target nodes: both programs compute it by the
  SAME host operations, so it is carried as one opaque function of h (Proof/Middle.lean) and never opened.
  No finiteness is used anywhere: a sum's order and the cutting of an array into row blocks change nothing on the
  extended reals, and no product is distributed over a sum.
-/
import Idealize.ShloMosaic.PureOps.Ideal
import Idealize.ShloMosaic.Lib.ValueIdx

noncomputable section

namespace Cert.Gcn

open Idealize.ShloMosaic Idealize.ShloMosaic.ValueIdx

/-- The node-feature arrays: 100000 nodes by 128 features. -/
abbrev SX : Shape := ⟨2, ![100000, 128]⟩
/-- The weight: 128 by 128. -/
abbrev SW : Shape := ⟨2, ![128, 128]⟩
/-- The bias: 128 features. -/
abbrev SB : Shape := ⟨1, ![128]⟩

/-- The dense projection: entry (r, c) of x · W is the sum over the 128 features k of x[r, k] · W[k, c]. -/
def proj (x : FVec Ideal SX .f32) (w : FVec Ideal SW .f32) : FVec Ideal SX .f32 :=
  fun i => ∑ k : Fin 128, x (ix2 (i 0) k) * w (ix2 k (i 1))

/-- Bias, positive part, residual: entry (r, c) is x[r, c] + max (agg[r, c] + b[c]) 0. -/
def resid (x agg : FVec Ideal SX .f32) (b : FVec Ideal SB .f32) : FVec Ideal SX .f32 :=
  fun i => x i + max (agg i + b (ix1 (i 1))) (Ideal.ofBits .f32 0x00000000#32)

end Cert.Gcn

end
-- ==== Proof.MatmulBlocks.lean ====
/-
  The projection's region: 50 grid points, each staging 2000 rows of `x` and the whole weight, multiplying the two blocks
  (the bf16 casts are the identity on the extended reals, the accumulator is zero) and writing 2000 rows of the result back.
  Here: the body's stored block at an index as a sum over the 128 features; each staged block as rows of the array it was
  fetched from; what a point writes back as the matching rows of `proj x W`; the 50 blocks tile the array; so the result
  array after the region is `proj x W`.
-/
import proofs.«130506_j5394478923808_1_alg».proof.Proof.Gen.KernelIdeal.Frame
import proofs.«130506_j5394478923808_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Out

open Cert.KernelIdeal Cert.KernelIdeal.Gen Cert.Gcn
open Idealize.ShloMosaic Idealize.ShloMosaic.TcCoe Idealize.SL.Sem Idealize.ShloMosaic.ValueIdx
open Idealize.ShloMosaic.Pipeline (Dat)

theorem zero_offsets2 : (![0, 0] : Fin 2 → Nat) = fun _ => 0 := funext fun a => by fin_cases a <;> rfl

/-! ## The projection's body at an index

The body casts both loaded blocks to bf16 (the identity on the extended reals) and multiplies them into a zero accumulator:
entry (p, q) of the stored block is the sum over k of the row block's (p, k) times the weight's (k, q). -/

theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_contr (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_contr (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The stored block at (p, q): the sum over the 128 features k of x0[p, k] · x1[k, q]. -/
theorem body0_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_contr _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_contr _ _).trans hk
    | ⟨1, _⟩ => exact rhs_col _ _)
  show x0 (dot_S2000x128_S128x128_S2000x128_1_0_0_1_n_n.lhsIdx (ix2 p q) _) * x1 (dot_S2000x128_S128x128_S2000x128_1_0_0_1_n_n.rhsIdx (ix2 p q) _) = _
  rw [el, er]

/-- The same at any index of the block. -/
theorem body0_at (x0 : Vec Ideal S2000x128 .f32) (x1 : Vec Ideal S128x128 .f32) (y : S2000x128.Idx) :
    k0_pay1 x0 x1 y = ∑ k : Fin 128, x0 (ix2 (y 0) k) * x1 (ix2 k (y 1)) := by
  obtain ⟨p, q, rfl⟩ : ∃ (p : Fin 2000) (q : Fin 128), y = ix2 p q := ⟨y 0, y 1, eq_ix2 y⟩
  exact body0_apply x0 x1 p q

/-! ## From blocks to the array

Point `t` of the 50 stages rows 2000·t … 2000·t + 1999 of `x` and the whole of `W`, and writes back rows
2000·t … 2000·t + 1999 of the result: the 50 blocks tile the array, and each is the matching rows of `proj x W`. -/

variable (V : (c : Dev nD) → (b : Ref sig .tc) → Buf (Elt Ideal) ((c : Thread nD τ).loc b))

/-- The printed index maps over the grid: the row-blocked windows sit at block (t, 0), the weight's at (0, 0). -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point `t` is rows 2000·t … of `x`. -/
theorem xblock0_apply (c : Dev nD) (t : Fin cfg0.N) (y : S2000x128.Idx) (i : SX.Idx)
    (h0 : (i 0).val = 2000 * t.val + (y 0).val) (h1 : (i 1).val = (y 1).val) :
    (iblk0 V c 0 t : Vec Ideal S2000x128 .f32) y = (V c main_arg0 : FVec Ideal SX .f32) i := by
  obtain ⟨e0, e1, -⟩ := index_facts0 t
  unfold iblk0
  rw [View.read_apply]
  refine congrArg (V c main_arg0) (funext fun a => Fin.ext ?_)
  match a with
  | ⟨0, _⟩ => show win0_0.index t 0 * 2000 + 1 * (y 0).val = (i 0).val; rw [e0, h0]; omega
  | ⟨1, _⟩ => show win0_0.index t 1 * 128 + 1 * (y 1).val = (i 1).val; rw [e1, h1]; omega

/-- The weight's block at every point is the whole of `W`. -/
theorem wblock0_apply (c : Dev nD) (t : Fin cfg0.N) (y : S128x128.Idx) (i : SW.Idx)
    (h0 : (i 0).val = (y 0).val) (h1 : (i 1).val = (y 1).val) :
    (iblk0 V c 1 t : Vec Ideal S128x128 .f32) y = (V c main_arg2 : FVec Ideal SW .f32) i := by
  obtain ⟨-, -, e0, e1, -⟩ := index_facts0 t
  unfold iblk0
  rw [View.read_apply]
  refine congrArg (V c main_arg2) (funext fun a => Fin.ext ?_)
  match a with
  | ⟨0, _⟩ => show win0_1.index t 0 * 128 + 1 * (y 0).val = (i 0).val; rw [e0, h0]; omega
  | ⟨1, _⟩ => show win0_1.index t 1 * 128 + 1 * (y 1).val = (i 1).val; rw [e1, h1]; omega

/-- What point `t` writes back is block `t` of `proj x W`, `x` and `W` the arrays as the region finds them. -/
theorem flushed0_eq (c : Dev nD) (t : Fin cfg0.N) :
    (dat0 V c).flushed 2 t = ((cfg0.win 2).blk t).view.read (Elt Ideal) (proj (V c main_arg0) (V c main_arg2)) := by
  obtain ⟨-, -, -, -, e0, e1⟩ := index_facts0 t
  show (cfg0.win 2).cut (grid0.coords t) ((dat0 V c).after 2 t) = _
  rw [after0_2]
  unfold out0_2
  rw [View.canon_unit_zero zero_offsets2]
  simp only [View.ld_unit_zero (S := S2000x128) zero_offsets2, View.ld_unit_zero (S := S128x128) zero_offsets2]
  funext j
  refine (body0_at _ _ _).trans ?_
  rw [View.read_apply]
  unfold proj
  refine Finset.sum_congr rfl fun k _ => ?_
  refine congrArg₂ (· * ·) (xblock0_apply V c t _ _ ?_ ?_) (wblock0_apply V c t _ _ ?_ ?_)
  · show win0_2.index t 0 * 2000 + 1 * (j 0).val = 2000 * t.val + (j 0).val
    rw [e0]; omega
  · rfl
  · rfl
  · show win0_2.index t 1 * 128 + 1 * (j 1).val = (j 1).val
    rw [e1]; omega

/-- An index of the array lies in point `t`'s block iff each coordinate lies in the block's range on its axis. -/
theorem mem_block0 (t : Fin cfg0.N) (i : SX.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- The blocks tile the array: row `r` is in the block of point `r / 2000`. -/
theorem cover0 (i : SX.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨Fin.cast hN.symm ⟨(i 0).val / 2000, by omega⟩, rfl⟩
  obtain ⟨-, -, -, -, e0, e1⟩ := index_facts0 t
  refine ⟨t, flush0_2 t, ?_⟩
  rw [mem_block0]
  intro a
  match a with
  | ⟨0, _⟩ =>
    show win0_2.index t 0 * 2000 ≤ (i 0).val ∧ (i 0).val < win0_2.index t 0 * 2000 + 2000
    rw [e0, ht]; omega
  | ⟨1, _⟩ =>
    show win0_2.index t 1 * 128 ≤ (i 1).val ∧ (i 1).val < win0_2.index t 1 * 128 + 128
    rw [e1]; omega

/-- The projection's result array after the region: `proj x W` of the arrays as the region finds them. -/
theorem proj_final (c : Dev nD) : (dat0 V c).arrAt 2 cfg0.N = proj (V c main_arg0) (V c main_arg2) :=
  (dat0 V c).arrAt_eq_of_cover 2 (proj (V c main_arg0) (V c main_arg2)) (fun t _ => flushed0_eq V c t) cover0

end Cert.KernelIdeal.Out

end
-- ==== Proof.ResidBlocks.lean ====
/-
  The residual's region: 50 grid points, each staging 2000 rows of `x`, the same rows of the aggregated array and the whole
  bias, and writing 2000 rows of the result back. Here: the body's stored block at an index; each staged block as rows of
  the array it was fetched from; what a point writes back as the matching rows of `resid x agg b`; the 50 blocks tile the
  array; so the result array after the region is `resid x agg b`.
-/
import proofs.«130506_j5394478923808_1_alg».proof.Proof.Gen.KernelIdeal.Frame
import proofs.«130506_j5394478923808_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Out

open Cert.KernelIdeal Cert.KernelIdeal.Gen Cert.Gcn
open Idealize.ShloMosaic Idealize.ShloMosaic.TcCoe Idealize.SL.Sem Idealize.ShloMosaic.ValueIdx
open Idealize.ShloMosaic.Pipeline (Dat)

theorem zero_offsets2' : (![0, 0] : Fin 2 → Nat) = fun _ => 0 := funext fun a => by fin_cases a <;> rfl
theorem zero_offsets1 : (![0] : Fin 1 → Nat) = fun _ => 0 := funext fun a => by fin_cases a; rfl

/-! ## The residual's body at an index

The body adds the bias, one row broadcast over the block's 2000 rows, to the aggregated block, takes the positive part and
adds the input block: entry (p, q) of the stored block is x[p, q] + max (agg[p, q] + b[q]) 0. -/

theorem body1_apply (a : Vec Ideal S2000x128 .f32) (b : Vec Ideal S128 .f32) (x : Vec Ideal S2000x128 .f32) (p : Fin 2000) (q : Fin 128) :
    k1_pay1 a b x (ix2 p q) = x (ix2 p q) + max (a (ix2 p q) + b (ix1 q)) (Ideal.ofBits .f32 0x00000000#32) := by
  unfold k1_pay1
  show x (ix2 p q) + max (shapeCast S2000x128 a shapeCasts_S2000x128_S2000x128 (ix2 p q)
      + broadcastTo S2000x128 (shapeCast S1x128 b shapeCasts_S128_S1x128) broadcasts_S1x128_S2000x128 (ix2 p q)) (Ideal.ofBits .f32 0x00000000#32) = _
  rw [shapeCast_self, broadcastTo_1b_ab_apply, shapeCast_a_1a_apply]

/-- The same at any index of the block. -/
theorem body1_at (a : Vec Ideal S2000x128 .f32) (b : Vec Ideal S128 .f32) (x : Vec Ideal S2000x128 .f32) (y : S2000x128.Idx) :
    k1_pay1 a b x y = x y + max (a y + b (ix1 (y 1))) (Ideal.ofBits .f32 0x00000000#32) := by
  obtain ⟨p, q, rfl⟩ : ∃ (p : Fin 2000) (q : Fin 128), y = ix2 p q := ⟨y 0, y 1, eq_ix2 y⟩
  exact body1_apply a b x p q

/-! ## From blocks to the array

Point `t` of the 50 stages rows 2000·t … 2000·t + 1999 of `x` and of the aggregated array and the whole bias, and writes
back the same rows of the result: the 50 blocks tile the array, and each is the matching rows of `resid x agg b`. -/

variable (V : (c : Dev nD) → (b : Ref sig .tc) → Buf (Elt Ideal) ((c : Thread nD τ).loc b))

/-- The printed index maps over the grid: the row-blocked windows sit at block (t, 0), the bias's at (0). -/
theorem index_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The input block at point `t` is rows 2000·t … of `x`. -/
theorem xblock1_apply (c : Dev nD) (t : Fin cfg1.N) (y : S2000x128.Idx) (i : SX.Idx)
    (h0 : (i 0).val = 2000 * t.val + (y 0).val) (h1 : (i 1).val = (y 1).val) :
    (iblk1 V c 0 t : Vec Ideal S2000x128 .f32) y = (V c main_arg0 : FVec Ideal SX .f32) i := by
  obtain ⟨e0, e1, -⟩ := index_facts1 t
  unfold iblk1
  rw [View.read_apply]
  refine congrArg (V c main_arg0) (funext fun a => Fin.ext ?_)
  match a with
  | ⟨0, _⟩ => show win1_0.index t 0 * 2000 + 1 * (y 0).val = (i 0).val; rw [e0, h0]; omega
  | ⟨1, _⟩ => show win1_0.index t 1 * 128 + 1 * (y 1).val = (i 1).val; rw [e1, h1]; omega

/-- The aggregated array's block at point `t` is its rows 2000·t …. -/
theorem aggblock1_apply (c : Dev nD) (t : Fin cfg1.N) (y : S2000x128.Idx) (i : SX.Idx)
    (h0 : (i 0).val = 2000 * t.val + (y 0).val) (h1 : (i 1).val = (y 1).val) :
    (iblk1 V c 1 t : Vec Ideal S2000x128 .f32) y = (V c main_v43 : FVec Ideal SX .f32) i := by
  obtain ⟨-, -, e0, e1, -⟩ := index_facts1 t
  unfold iblk1
  rw [View.read_apply]
  refine congrArg (V c main_v43) (funext fun a => Fin.ext ?_)
  match a with
  | ⟨0, _⟩ => show win1_1.index t 0 * 2000 + 1 * (y 0).val = (i 0).val; rw [e0, h0]; omega
  | ⟨1, _⟩ => show win1_1.index t 1 * 128 + 1 * (y 1).val = (i 1).val; rw [e1, h1]; omega

/-- The bias's block at every point is the whole bias. -/
theorem bblock1_apply (c : Dev nD) (t : Fin cfg1.N) (y : S128.Idx) (i : SB.Idx) (h0 : (i 0).val = (y 0).val) :
    (iblk1 V c 2 t : Vec Ideal S128 .f32) y = (V c main_arg3 : FVec Ideal SB .f32) i := by
  obtain ⟨-, -, -, -, e0, -⟩ := index_facts1 t
  unfold iblk1
  rw [View.read_apply]
  refine congrArg (V c main_arg3) (funext fun a => Fin.ext ?_)
  match a with
  | ⟨0, _⟩ => show win1_2.index t 0 * 128 + 1 * (y 0).val = (i 0).val; rw [e0, h0]; omega

/-- What point `t` writes back is block `t` of `resid x agg b`, the three arrays as the region finds them. -/
theorem flushed1_eq (c : Dev nD) (t : Fin cfg1.N) :
    (dat1 V c).flushed 3 t = ((cfg1.win 3).blk t).view.read (Elt Ideal) (resid (V c main_arg0) (V c main_v43) (V c main_arg3)) := by
  obtain ⟨-, -, -, -, -, e0, e1⟩ := index_facts1 t
  show (cfg1.win 3).cut (grid1.coords t) ((dat1 V c).after 3 t) = _
  rw [after1_3]
  unfold out1_3
  rw [View.canon_unit_zero zero_offsets2']
  simp only [View.ld_unit_zero (S := S2000x128) zero_offsets2', View.ld_unit_zero (S := S128) zero_offsets1]
  funext j
  refine (body1_at _ _ _ _).trans ?_
  rw [View.read_apply]
  unfold resid
  refine congrArg₂ (· + ·) (xblock1_apply V c t _ _ ?_ ?_)
    (congrArg (fun u => max u (Ideal.ofBits .f32 0x00000000#32))
      (congrArg₂ (· + ·) (aggblock1_apply V c t _ _ ?_ ?_) (bblock1_apply V c t _ _ ?_)))
  · show win1_3.index t 0 * 2000 + 1 * (j 0).val = 2000 * t.val + (j 0).val
    rw [e0]; omega
  · show win1_3.index t 1 * 128 + 1 * (j 1).val = (j 1).val
    rw [e1]; omega
  · show win1_3.index t 0 * 2000 + 1 * (j 0).val = 2000 * t.val + (j 0).val
    rw [e0]; omega
  · show win1_3.index t 1 * 128 + 1 * (j 1).val = (j 1).val
    rw [e1]; omega
  · show win1_3.index t 1 * 128 + 1 * (j 1).val = (j 1).val
    rw [e1]; omega

/-- An index of the array lies in point `t`'s block iff each coordinate lies in the block's range on its axis. -/
theorem mem_block1 (t : Fin cfg1.N) (i : SX.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v44).slice (win1_3.rect t)).set ↔ _
  rw [View.set_slice_whole, Rect.mem_set_unit]
  exact Iff.rfl

/-- The blocks tile the array: row `r` is in the block of point `r / 2000`. -/
theorem cover1 (i : SX.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨Fin.cast hN.symm ⟨(i 0).val / 2000, by omega⟩, rfl⟩
  obtain ⟨-, -, -, -, -, e0, e1⟩ := index_facts1 t
  refine ⟨t, flush1_3 t, ?_⟩
  rw [mem_block1]
  intro a
  match a with
  | ⟨0, _⟩ =>
    show win1_3.index t 0 * 2000 ≤ (i 0).val ∧ (i 0).val < win1_3.index t 0 * 2000 + 2000
    rw [e0, ht]; omega
  | ⟨1, _⟩ =>
    show win1_3.index t 1 * 128 ≤ (i 1).val ∧ (i 1).val < win1_3.index t 1 * 128 + 128
    rw [e1]; omega

/-- The residual's result array after the region: `resid x agg b` of the arrays as the region finds them. -/
theorem resid_final (c : Dev nD) : (dat1 V c).arrAt 3 cfg1.N = resid (V c main_arg0) (V c main_v43) (V c main_arg3) :=
  (dat1 V c).arrAt_eq_of_cover 3 (resid (V c main_arg0) (V c main_v43) (V c main_arg3)) (fun t _ => flushed1_eq V c t) cover1

end Cert.KernelIdeal.Out

end
-- ==== Proof.Whole.lean ====
/-
  The whole block as ONE function of the four argument arrays: project the features, aggregate them over the graph, add the
  bias, take the positive part, add the input back — `gcn x ei W b = resid x (mid ei (proj x W)) b`. Both programs' result
  arrays are shown equal to it.
-/
import proofs.«130506_j5394478923808_1_alg».proof.Proof.Middle
import proofs.«130506_j5394478923808_1_alg».proof.Proof.Spec

noncomputable section

namespace Cert.KernelIdeal.Out

open Cert.KernelIdeal Cert.Gcn Idealize.ShloMosaic Idealize.SL.Sem

/-- x + max (mid (x · W) + b) 0, entry by entry. -/
def gcn (x : FVec Ideal SX .f32) (ei : (⟨S2x640000, .i32⟩ : BufTy).Contents (Elt Ideal)) (w : FVec Ideal SW .f32) (b : FVec Ideal SB .f32) :
    FVec Ideal SX .f32 :=
  resid x (mid (F := Ideal) ei (proj x w)) b

end Cert.KernelIdeal.Out

end
-- ==== Proof.KernelValue.lean ====
/-
  The idealized kernel's result array, read: the residual's region leaves `resid` of what it finds in `x`, the aggregated
  array and the bias; the aggregated array is `mid` of the projection's result array, which the projection's region leaves
  at `proj` of what it finds in `x` and `W`; and `x`, `W`, the bias and the edge list are as launched throughout. So the
  result buffer ends at `gcn` of the four launched arguments.
-/
import proofs.«130506_j5394478923808_1_alg».proof.Proof.HostReads
import proofs.«130506_j5394478923808_1_alg».proof.Proof.MatmulBlocks
import proofs.«130506_j5394478923808_1_alg».proof.Proof.ResidBlocks
import proofs.«130506_j5394478923808_1_alg».proof.Proof.Whole

set_option maxRecDepth 16384

noncomputable section

namespace Cert.KernelIdeal.Out

open Cert.KernelIdeal Cert.KernelIdeal.Gen Cert.Gcn
open Idealize.ShloMosaic Idealize.ShloMosaic.TcCoe Idealize.SL.Sem

variable (m : (ℓ : Loc nD τ sig) → Buf (Elt Ideal) ℓ) (ρ : Dev nD → PrngReg)

/-- The projection's result array: `proj` of the launched `x` and `W`. -/
theorem h_value (c : Dev nD) :
    (W4 m ρ c (Proc.devRef .tc main_v30) : FVec Ideal SX .f32)
      = proj (m ((c.tc : Thread nD τ).loc main_arg0)) (m ((c.tc : Thread nD τ).loc main_arg2)) := by
  rw [h_at4, proj_final (V3 m ρ) c]
  show proj (W3 m ρ c (Proc.devRef .tc main_arg0)) (W3 m ρ c (Proc.devRef .tc main_arg2)) = _
  rw [x_at3, w_at3]

/-- The program's result buffer after the run: `gcn` of the four launched arguments. -/
theorem out_value (c : Dev nD) :
    (W6 m ρ c (Proc.devRef .tc main_v44) : FVec Ideal SX .f32)
      = gcn (m ((c.tc : Thread nD τ).loc main_arg0)) (m ((c.tc : Thread nD τ).loc main_arg1))
          (m ((c.tc : Thread nD τ).loc main_arg2)) (m ((c.tc : Thread nD τ).loc main_arg3)) := by
  rw [out_at6, resid_final (V5 m ρ) c]
  show resid (W5 m ρ c (Proc.devRef .tc main_arg0)) (W5 m ρ c (Proc.devRef .tc main_v43)) (W5 m ρ c (Proc.devRef .tc main_arg3)) = _
  rw [x_at5, b_at5, agg_at5, h_value]
  rfl

end Cert.KernelIdeal.Out

end
-- ==== Proof.RefValue.lean ====
/-
  The reference's result, read. Its run ends with the result at the composed term of its 64 host operations; that term is
  x + max (mid (x · W) + b) 0 written with whole-array operations: the `dot_general` of `x` and `W` is `proj x W` entry by
  entry (the sum over the one contracted axis), the middle is the same operations the kernel's @main runs (`mid`), the bias
  is broadcast along the rows, and the positive part and the two sums are pointwise. So the term is
  `resid x (mid ei (proj x W)) b`.
-/
import proofs.«130506_j5394478923808_1_alg».proof.Proof.RefRun
import proofs.«130506_j5394478923808_1_alg».proof.Proof.Whole
import Idealize.ShloMosaic.Lib.Pipeline.Value
import Idealize.ShloMosaic.Lib.ValueIdx
import Idealize.ShloMosaic.PureOps.Ideal.Laws

set_option maxRecDepth 16384

noncomputable section

namespace Cert.ReferenceIdeal.Out

open Cert.ReferenceIdeal Cert.ReferenceIdeal.Gen Cert.Gcn
open Idealize.ShloMosaic Idealize.ShloMosaic.TcCoe Idealize.SL.Sem Idealize.ShloMosaic.ValueIdx

/-! ## The host's matrix product at an index -/

theorem lhs_row (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_contr (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_contr (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_col (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's `dot_general` of `x` and `W` is `proj x W`: at (r, c) the sum over k of x[r, k] · W[k, c]. -/
theorem dot_eq_proj (x : FVec Ideal S100000x128 .f32) (w : FVec Ideal S128x128 .f32) :
    Host.dotGeneral (F := Ideal) dot_S100000x128_S128x128_S100000x128_1_0_0_1_n_n none x w = proj x w := by
  funext i
  simp only [Host.dotGeneral]
  rw [Ideal.dotGeneral_apply, ← Equiv.sum_comp (contrEquiv1 dot_S100000x128_S128x128_S100000x128_1_0_0_1_n_n 128 rfl rfl).symm]
  show _ = ∑ k : Fin 128, x (ix2 (i 0) k) * w (ix2 k (i 1))
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx i ((contrEquiv1 dot_S100000x128_S128x128_S100000x128_1_0_0_1_n_n 128 rfl rfl).symm k) = ix2 (i 0) k := funext fun a => Fin.ext (by
    match a with
    | ⟨0, _⟩ => exact lhs_row _ _
    | ⟨1, _⟩ => exact (lhs_contr _ _).trans hk)
  have er : dot_S100000x128_S128x128_S100000x128_1_0_0_1_n_n.rhsIdx i ((contrEquiv1 dot_S100000x128_S128x128_S100000x128_1_0_0_1_n_n 128 rfl rfl).symm k) = ix2 k (i 1) := funext fun a => Fin.ext (by
    match a with
    | ⟨0, _⟩ => exact (rhs_contr _ _).trans hk
    | ⟨1, _⟩ => exact rhs_col _ _)
  rw [el, er]
  rfl

/-! ## The bias broadcast along the rows -/

/-- The bias, given a unit leading axis and repeated over the 100000 rows, reads at (r, c) the bias at c. -/
theorem bias_apply (b : FVec Ideal S128 .f32) (r : Fin 100000) (q : Fin 128) :
    broadcastInDim S100000x128 ![0, 1] bcast_S1x128_S100000x128_0_1 (broadcastInDim S1x128 ![1] bcast_S128_S1x128_1 b) (ix2 r q) = b (ix1 q) :=
  (broadcastInDim_apply ![0, 1] bcast_S1x128_S100000x128_0_1 (broadcastInDim S1x128 ![1] bcast_S128_S1x128_1 b) (ix2 r q) (ix2 (0 : Fin 1) q) (fun a => by
      match a with
      | ⟨0, _⟩ => rfl
      | ⟨1, _⟩ => rfl)).trans
    (broadcastInDim_apply ![1] bcast_S128_S1x128_1 b (ix2 (0 : Fin 1) q) (ix1 q) (fun a => by
      match a with
      | ⟨0, _⟩ => rfl))

/-! ## The tail, pointwise -/

/-- Bias, positive part and residual as whole-array host operations are `resid`, entry by entry. -/
theorem tail_eq (x a : FVec Ideal S100000x128 .f32) (b : FVec Ideal S128 .f32) :
    addf x (maximumf (addf a (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32)))
      = resid x a b := by
  funext i
  obtain ⟨r, q, rfl⟩ : ∃ (r : Fin 100000) (q : Fin 128), i = ix2 r q := ⟨i 0, i 1, eq_ix2 i⟩
  show x (ix2 r q) + max (a (ix2 r q)
        + broadcastInDim S100000x128 ![0, 1] bcast_S1x128_S100000x128_0_1 (broadcastInDim S1x128 ![1] bcast_S128_S1x128_1 b) (ix2 r q))
      (Ideal.ofBits .f32 0x00000000#32) = _
  rw [bias_apply]
  rfl

/-! ## The result term -/

/-- The reference's operations grouped: the product, the shared middle, the tail. -/
def refTerm (x : FVec Ideal S100000x128 .f32) (ei : (⟨S2x640000, .i32⟩ : BufTy).Contents (Elt Ideal)) (w : FVec Ideal S128x128 .f32)
    (b : FVec Ideal S128 .f32) : FVec Ideal S100000x128 .f32 :=
  addf x (maximumf
    (addf (Cert.KernelIdeal.Out.mid (F := Ideal) ei (Host.dotGeneral (F := Ideal) dot_S100000x128_S128x128_S100000x128_1_0_0_1_n_n none x w))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32)))

/-- Grouped so, the reference computes `gcn`. -/
theorem refTerm_eq (x : FVec Ideal S100000x128 .f32) (ei : (⟨S2x640000, .i32⟩ : BufTy).Contents (Elt Ideal)) (w : FVec Ideal S128x128 .f32)
    (b : FVec Ideal S128 .f32) : refTerm x ei w b = Cert.KernelIdeal.Out.gcn x ei w b := by
  unfold refTerm
  rw [dot_eq_proj]
  exact tail_eq x _ b

variable (m : (ℓ : Loc nD τ sig) → Buf (Elt Ideal) ℓ)

set_option maxHeartbeats 4000000 in
/-- The run's result term is the grouped term of the launched arguments: the same operations, with the kernel's names for
    the shared middle. -/
theorem res_shape (c : Dev nD) :
    Cert.ReferenceIdeal.ValueP.res_main_v48 m c
      = refTerm (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.ValueP.res_main_v48 refTerm
  rfl

/-- The reference's result: `gcn` of its four launched arguments. -/
theorem ref_value (c : Dev nD) :
    Cert.ReferenceIdeal.ValueP.res_main_v48 m c
      = Cert.KernelIdeal.Out.gcn (m ((c.tc : Thread nD τ).loc main_arg0)) (m ((c.tc : Thread nD τ).loc main_arg1))
          (m ((c.tc : Thread nD τ).loc main_arg2)) (m ((c.tc : Thread nD τ).loc main_arg3)) :=
  (res_shape m c).trans (refTerm_eq _ _ _ _)

end Cert.ReferenceIdeal.Out

end
-- ==== Proof.lean ====
/-
  One graph-convolution block, x + relu(Â (x · W) + b) with Â the symmetrically normalized adjacency with self loops, as a
  TPU program against its jnp reference, on the extended reals.

  The kernel's @main projects the features in one pallas_call (a row-tiled matrix product, 2000 rows per grid point, the
  operands cast to bf16 — the identity on the extended reals — and accumulated from zero), runs the gather along the edges,
  the edge weights dinv[src] · dinv[dst] and the scatter-add onto the targets as host operations, and adds the bias, takes
  the positive part and adds the input back in a second pallas_call (the same row tiling). The reference does the product
  as one `dot_general`, the SAME host operations for the aggregation, and the tail as whole-array host operations.

  Both result arrays are ONE function of the four arguments, `gcn x ei W b = resid x (mid ei (proj x W)) b`
  (Proof/Spec.lean, Proof/Middle.lean, Proof/Whole.lean): a tile of the product is the matching rows of the whole
  product, entry by entry the same sum over the 128 features; the aggregation is the same term on both sides and is never
  opened; and the tail is pointwise, so cutting it into row blocks changes nothing. No law is used that fails at an
  infinity (no product is distributed over a sum, nothing is cancelled), so the precondition is never opened.

  The three frames are the generated ones (the reference's is its run with the result dropped); the idealization rewrote
  no operation, so `preserves` has nothing to state.
-/
import proofs.«130506_j5394478923808_1_alg».proof.Defs
import proofs.«130506_j5394478923808_1_alg».proof.Proof.Gen.Kernel
import proofs.«130506_j5394478923808_1_alg».proof.Proof.Gen.Kernel.Skeleton
import proofs.«130506_j5394478923808_1_alg».proof.Proof.Gen.Kernel.Launch
import proofs.«130506_j5394478923808_1_alg».proof.Proof.Gen.Kernel.Points
import proofs.«130506_j5394478923808_1_alg».proof.Proof.Gen.Kernel.Frame
import proofs.«130506_j5394478923808_1_alg».proof.Proof.Gen.KernelIdeal
import proofs.«130506_j5394478923808_1_alg».proof.Proof.Gen.KernelIdeal.Skeleton
import proofs.«130506_j5394478923808_1_alg».proof.Proof.Gen.KernelIdeal.Launch
import proofs.«130506_j5394478923808_1_alg».proof.Proof.Gen.KernelIdeal.Points
import proofs.«130506_j5394478923808_1_alg».proof.Proof.Gen.KernelIdeal.Frame
import proofs.«130506_j5394478923808_1_alg».proof.Proof.Gen.ReferenceIdeal
import proofs.«130506_j5394478923808_1_alg».proof.Proof.Gen.Pre_finite_inputs
import proofs.«130506_j5394478923808_1_alg».proof.Proof.KernelRun
import proofs.«130506_j5394478923808_1_alg».proof.Proof.KernelValue
import proofs.«130506_j5394478923808_1_alg».proof.Proof.RefRun
import proofs.«130506_j5394478923808_1_alg».proof.Proof.RefValue
import Idealize.ShloMosaic.Adequacy
import Idealize.ShloMosaic.Init

noncomputable section

namespace Cert.Proof

open Idealize.ShloMosaic Idealize.SL.Sem

/-- The word-level kernel runs and leaves its arguments: the generated frame. -/
theorem frame_kernel : Cert.frame_Kernel := fun m ρ _ => Cert.Kernel.Gen.frame m ρ

/-- The idealized kernel runs and leaves its arguments: the generated frame. -/
theorem frame_kernelIdeal : Cert.frame_KernelIdeal := fun m ρ _ => Cert.KernelIdeal.Gen.frame m ρ

/-- The idealized reference runs and leaves its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- On the extended reals both programs end with their result arrays at `gcn` of arguments that agree. -/
theorem algebraic : Cert.algebraic_KernelIdeal_ReferenceIdeal := by
  intro m ρ m' ρ' _ hagree
  refine ⟨fun c => Cert.KernelIdeal.Out.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Out.out_value m ρ c), (h c).2⟩)
      (Cert.KernelIdeal.Out.run_out m ρ)
  · refine (θ_run Cert.ReferenceIdeal.defs _ _).mono (fun _ h c => ⟨(h c).1.trans ?_, (h c).2⟩)
      (Cert.ReferenceIdeal.ValueP.run (F := Ideal) m' ρ')
    refine (Cert.ReferenceIdeal.Out.ref_value m' c).trans ?_
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
